-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1536 : Shape := ⟨2, ![4096, 1536]⟩
abbrev S1536x1536 : Shape := ⟨2, ![1536, 1536]⟩
abbrev S1536 : Shape := ⟨1, ![1536]⟩
abbrev S_ : Shape := ⟨0, ![]⟩

class Facts : Prop where
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S1536x1536 : S_.BroadcastsInDim S1536x1536 (![] : Fin 0 → Fin S1536x1536.rank)
  reducesTo_S1536x1536_S_d0_1 : S1536x1536.ReducesTo [0, 1] S_
  bcast_S_S1536 : S_.BroadcastsInDim S1536 (![] : Fin 0 → Fin S1536.rank)
  reducesTo_S1536_S_d0 : S1536.ReducesTo [0] S_

variable [Facts]

def fn_part1 {F : FTy → Type} [FloatOps F] (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  main_v18

def fn {F : FTy → Type} [FloatOps F] (main_arg0 : FVec F S4096x1536 .f32) (main_arg1 : FVec F S4096x1536 .f32) (main_arg2 : FVec F S1536x1536 .f32) (main_arg3 : FVec F S1536 .f32) : IVec S_ 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_c : IVec S_ 1 := constantI S_ 1 1#1
  let main_v3 : IVec S_ 1 := (fun x v => Host.reduce IntOp.andi x v reducesTo_S4096x1536_S_d0_1 h_S_) main_v2 main_c
  let main_v4 : FVec F S4096x1536 .f32 := Host.absf main_arg1
  let main_cst_0 : FVec F S_ .f32 := constant S_ .f32 0x7F800000#32
  let main_v5 : FVec F S4096x1536 .f32 := broadcastInDim S4096x1536 ![] bcast_S_S4096x1536 main_cst_0
  let main_v6 : IVec S4096x1536 1 := cmpf .olt main_v4 main_v5
  let main_c_1 : IVec S_ 1 := constantI S_ 1 1#1
  let main_v7 : IVec S_ 1 := (fun x v => Host.reduce IntOp.andi x v reducesTo_S4096x1536_S_d0_1 h_S_) main_v6 main_c_1
  let main_v8 : IVec S_ 1 := andi main_v3 main_v7
  let main_v9 : FVec F S1536x1536 .f32 := Host.absf main_arg2
  let main_cst_2 : FVec F S_ .f32 := constant S_ .f32 0x7F800000#32
  let main_v10 : FVec F S1536x1536 .f32 := broadcastInDim S1536x1536 ![] bcast_S_S1536x1536 main_cst_2
  let main_v11 : IVec S1536x1536 1 := cmpf .olt main_v9 main_v10
  let main_c_3 : IVec S_ 1 := constantI S_ 1 1#1
  let main_v12 : IVec S_ 1 := (fun x v => Host.reduce IntOp.andi x v reducesTo_S1536x1536_S_d0_1 h_S_) main_v11 main_c_3
  let main_v13 : IVec S_ 1 := andi main_v8 main_v12
  let main_v14 : FVec F S1536 .f32 := Host.absf main_arg3
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_v13 main_v16
-- ==== Kernel.lean ====
abbrev S4096x1536 : Shape := ⟨2, ![4096, 1536]⟩
abbrev S1536x1536 : Shape := ⟨2, ![1536, 1536]⟩
abbrev S1536 : Shape := ⟨1, ![1536]⟩
abbrev S1x1536 : Shape := ⟨2, ![1, 1536]⟩
abbrev S1x4096 : Shape := ⟨2, ![1, 4096]⟩
abbrev S512x1536 : Shape := ⟨2, ![512, 1536]⟩
abbrev S1x512 : Shape := ⟨2, ![1, 512]⟩
abbrev S512 : Shape := ⟨1, ![512]⟩
abbrev S512x1 : Shape := ⟨2, ![512, 1]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S2048x1536 : Shape := ⟨2, ![2048, 1536]⟩
abbrev S2048x1 : Shape := ⟨2, ![2048, 1]⟩
abbrev S2048x512 : Shape := ⟨2, ![2048, 512]⟩

abbrev nBuf : Space → Nat
  | .hbm => 14
  | .vmem => 18
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S1536x1536, .f32⟩
  | .hbm, ⟨3, _⟩ => ⟨S1536, .f32⟩
  | .hbm, ⟨4, _⟩ => ⟨S1536x1536, .bf16⟩
  | .hbm, ⟨5, _⟩ => ⟨S1x1536, .f32⟩
  | .hbm, ⟨6, _⟩ => ⟨S4096x1536, .bf16⟩
  | .hbm, ⟨7, _⟩ => ⟨S1x4096, .f32⟩
  | .hbm, ⟨8, _⟩ => ⟨S4096x1536, .bf16⟩
  | .hbm, ⟨9, _⟩ => ⟨S4096x1536, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x4096, .f32⟩
  | .local _ .vmem, ⟨0, _⟩ => ⟨S512x1536, .f32⟩
  | .local _ .vmem, ⟨1, _⟩ => ⟨S512x1536, .f32⟩
  | .local _ .vmem, ⟨2, _⟩ => ⟨S1536x1536, .bf16⟩
  | .local _ .vmem, ⟨3, _⟩ => ⟨S1x1536, .f32⟩
  | .local _ .vmem, ⟨4, _⟩ => ⟨S512x1536, .bf16⟩
  | .local _ .vmem, ⟨5, _⟩ => ⟨S512x1536, .bf16⟩
  | .local _ .vmem, ⟨6, _⟩ => ⟨S1x512, .f32⟩
  | .local _ .vmem, ⟨7, _⟩ => ⟨S1x512, .f32⟩
  | .local _ .vmem, ⟨8, _⟩ => ⟨S2048x1536, .bf16⟩
  | .local _ .vmem, ⟨9, _⟩ => ⟨S2048x1536, .bf16⟩
  | .local _ .vmem, ⟨10, _⟩ => ⟨S2048x1, .f32⟩
  | .local _ .vmem, ⟨11, _⟩ => ⟨S2048x1, .f32⟩
  | .local _ .vmem, ⟨12, _⟩ => ⟨S512x1536, .bf16⟩
  | .local _ .vmem, ⟨13, _⟩ => ⟨S512x1536, .bf16⟩
  | .local _ .vmem, ⟨14, _⟩ => ⟨S1x512, .f32⟩
  | .local _ .vmem, ⟨15, _⟩ => ⟨S1x512, .f32⟩
  | .local _ .vmem, ⟨16, _⟩ => ⟨S2048x512, .f32⟩
  | .local _ .vmem, ⟨17, _⟩ => ⟨S2048x512, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1536 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bitsLt_bf16_f32 : FTy.bits .bf16 < FTy.bits .f32
  shapeCasts_S1536_S1x1536 : S1536.ShapeCasts S1x1536
  inb_S512x1536_S512x1536_0_0 : ∀ a, (![0, 0] : Fin 2 → Nat) a + S512x1536.size a ≤ S512x1536.size a
  h_S512x1536 : 0 < S512x1536.numel
  inb_S1536x1536_S1536x1536_0_0 : ∀ a, (![0, 0] : Fin 2 → Nat) a + S1536x1536.size a ≤ S1536x1536.size a
  h_S1536x1536 : 0 < S1536x1536.numel
  shapeCasts_S1536x1536_S1536x1536 : S1536x1536.ShapeCasts S1536x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  packedbf16_S512x1536_S512x1536_0_0 : (Rect.unit (s := S512x1536) ![0, 0] S512x1536.size inb_S512x1536_S512x1536_0_0).PackedRows (EltTy.packing .bf16)
  reduces_S512x1536_S512 : S512x1536.Reduces [1] S512
  shapeCasts_S512_S512x1 : S512.ShapeCasts S512x1
  transposes_S512x1_p1_0_S1x512 : S512x1.Transposes [1, 0] S1x512
  inb_S1x512_S1x512_0_0 : ∀ a, (![0, 0] : Fin 2 → Nat) a + S1x512.size a ≤ S1x512.size a
  h_S1x512 : 0 < S1x512.numel
  reducesTo_S4096x1536_S4096_d1 : S4096x1536.ReducesTo [1] S4096
  h_S_ : 0 < S_.numel
  bcast_S4096_S4096x1_0 : S4096.BroadcastsInDim S4096x1 (![0] : Fin 1 → Fin S4096x1.rank)
  inb_S2048x1536_S2048x1536_0_0 : ∀ a, (![0, 0] : Fin 2 → Nat) a + S2048x1536.size a ≤ S2048x1536.size a
  h_S2048x1536 : 0 < S2048x1536.numel
  shapeCasts_S2048x1536_S2048x1536 : S2048x1536.ShapeCasts S2048x1536
  shapeCasts_S512x1536_S512x1536 : S512x1536.ShapeCasts S512x1536
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  shapeCasts_S1x512_S1x512 : S1x512.ShapeCasts S1x512
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S512x1536_S1536x1536_S512x1536_1_1_0_0_n_n_wf : DotDims.WF S512x1536 S1536x1536 S512x1536 [1] [1] [0] [0] [] []
  dot_S2048x1536_S512x1536_S2048x512_1_1_0_0_n_n_wf : DotDims.WF S2048x1536 S512x1536 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1536.size a ≤ S4096x1536.size a
  hwx0_0 : ∀ i : grid0.Coords, EltTy.bits .f32 = 32 ∨ (Rect.block (s := S4096x1536) S512x1536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x1536.size a ≤ S1536x1536.size a
  hwx0_1 : ∀ i : grid0.Coords, EltTy.bits .bf16 = 32 ∨ (Rect.block (s := S1536x1536) S1536x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S4096x1536.size a
  hwx0_3 : ∀ i : grid0.Coords, EltTy.bits .bf16 = 32 ∨ (Rect.block (s := S4096x1536) S512x1536.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1536.size a ≤ S4096x1536.size a
  hwx1_0 : ∀ i : grid1.Coords, EltTy.bits .bf16 = 32 ∨ (Rect.block (s := S4096x1536) S2048x1536.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S4096x1.size a
  hwx1_1 : ∀ i : grid1.Coords, EltTy.bits .f32 = 32 ∨ (Rect.block (s := S4096x1) S2048x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1536.size a ≤ S4096x1536.size a
  hwx1_2 : ∀ i : grid1.Coords, EltTy.bits .bf16 = 32 ∨ (Rect.block (s := S4096x1536) S512x1536.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x512.size a ≤ S4096x4096.size a
  hwx1_4 : ∀ i : grid1.Coords, EltTy.bits .f32 = 32 ∨ (Rect.block (s := S4096x4096) S2048x512.size (cc1_transform_4 i) (hinb1_4 i)).WholeWords (EltTy.packing .f32)

variable [Facts₀]

def dot_S512x1536_S1536x1536_S512x1536_1_1_0_0_n_n : DotDims S512x1536 S1536x1536 S512x1536 where
  lhsContracting := [1]
  rhsContracting := [1]
  lhsNonContracting := [0]
  rhsNonContracting := [0]
  lhsBatch := []
  rhsBatch := []
  wf := dot_S512x1536_S1536x1536_S512x1536_1_1_0_0_n_n_wf
def dot_S2048x1536_S512x1536_S2048x512_1_1_0_0_n_n : DotDims S2048x1536 S512x1536 S2048x512 where
  lhsContracting := [1]
  rhsContracting := [1]
  lhsNonContracting := [0]
  rhsNonContracting := [0]
  lhsBatch := []
  rhsBatch := []
  wf := dot_S2048x1536_S512x1536_S2048x512_1_1_0_0_n_n_wf

abbrev win0_0 : Pipeline.Window sig grid0 :=
  Pipeline.Window.ofSpec (Memref.whole main_arg1) S512x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1536x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S512x1536.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S2048x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S512x1536.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S2048x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x1536 : Shape := ⟨2, ![4096, 1536]⟩
abbrev S1536x1536 : Shape := ⟨2, ![1536, 1536]⟩
abbrev S1536 : Shape := ⟨1, ![1536]⟩
abbrev S1x1536 : Shape := ⟨2, ![1, 1536]⟩
abbrev S_ : Shape := ⟨0, ![]⟩
abbrev S4096 : Shape := ⟨1, ![4096]⟩
abbrev S1536x4096 : Shape := ⟨2, ![1536, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S1536x1536, .f32⟩
  | .hbm, ⟨3, _⟩ => ⟨S1536, .f32⟩
  | .hbm, ⟨4, _⟩ => ⟨S1536x1536, .f32⟩
  | .hbm, ⟨5, _⟩ => ⟨S4096x1536, .f32⟩
  | .hbm, ⟨6, _⟩ => ⟨S1x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S_, .f32⟩
  | .hbm, ⟨11, _⟩ => ⟨S4096, .f32⟩
  | .hbm, ⟨12, _⟩ => ⟨S4096x1536, .f32⟩
  | .hbm, ⟨13, _⟩ => ⟨S_, .f32⟩
  | .hbm, ⟨14, _⟩ => ⟨S4096, .f32⟩
  | .hbm, ⟨15, _⟩ => ⟨S1536x4096, .f32⟩
  | .hbm, ⟨16, _⟩ => ⟨S4096x4096, .f32⟩
  | .hbm, ⟨17, _⟩ => ⟨S4096x1, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  transposes_S1536x1536_S1536x1536_1_0 : S1536x1536.Transposes [1, 0] S1536x1536
  bcast_S1536_S1x1536_1 : S1536.BroadcastsInDim S1x1536 (![1] : Fin 1 → Fin S1x1536.rank)
  bcast_S1x1536_S4096x1536_0_1 : S1x1536.BroadcastsInDim S4096x1536 (![0, 1] : Fin 2 → Fin S4096x1536.rank)
  reducesTo_S4096x1536_S4096_d1 : S4096x1536.ReducesTo [1] S4096
  h_S_ : 0 < S_.numel
  transposes_S4096x1536_S1536x4096_1_0 : S4096x1536.Transposes [1, 0] S1536x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x1536_S1536x1536_S4096x1536_1_0_0_1_n_n_wf : DotDims.WF S4096x1536 S1536x1536 S4096x1536 [1] [0] [0] [1] [] []
  dot_S4096x1536_S1536x4096_S4096x4096_1_0_0_1_n_n_wf : DotDims.WF S4096x1536 S1536x4096 S4096x4096 [1] [0] [0] [1] [] []

variable [Facts₀]

def dot_S4096x1536_S1536x1536_S4096x1536_1_0_0_1_n_n : DotDims S4096x1536 S1536x1536 S4096x1536 where
  lhsContracting := [1]
  rhsContracting := [0]
  lhsNonContracting := [0]
  rhsNonContracting := [1]
  lhsBatch := []
  rhsBatch := []
  wf := dot_S4096x1536_S1536x1536_S4096x1536_1_0_0_1_n_n_wf
def dot_S4096x1536_S1536x4096_S4096x4096_1_0_0_1_n_n : DotDims S4096x1536 S1536x4096 S4096x4096 where
  lhsContracting := [1]
  rhsContracting := [0]
  lhsNonContracting := [0]
  rhsNonContracting := [1]
  lhsBatch := []
  rhsBatch := []
  wf := dot_S4096x1536_S1536x4096_S4096x4096_1_0_0_1_n_n_wf

class Facts : Prop extends Facts₀ where

variable [Facts]
-- ==== Proof.LibRowDots.lean ====
/-
  A matrix product that pairs the ROWS of its two operands, read at an entry, for any sizes.

  When the dimension numbers of a matrix product contract the second axis of an `a × k` left operand with the second
  axis of a `b × k` right operand (no batch axes; the first axis of each operand is kept), entry `(p, q)` of the
  `a × b` result, accumulated from zero, is the inner product of row `p` of the left operand with row `q` of the right
  one: the sum over the shared coordinate `c` of `A (p, c) * B (q, c)`, in the coordinate's order. This is the product
  of the left operand with the transpose of the right one, without a transpose being formed.
-/
import Idealize.ShloMosaic.Lib.Pipeline.Value
import Idealize.ShloMosaic.Lib.ValueIdx
import Idealize.ShloMosaic.PureOps.Ideal.Laws

noncomputable section

open scoped BigOperators

namespace Cert.Lib.RowDots

open Idealize.ShloMosaic Idealize.ShloMosaic.ValueIdx

variable {a b k : ℕ}

/-- A coordinate of an index read at two positions that are the same number. -/
theorem coord_congr {s : Shape} (j : s.Idx) (p q : ℕ) (hp : p < s.rank) (hq : q < s.rank) (h : p = q) :
    (j ⟨p, hp⟩).val = (j ⟨q, hq⟩).val := by subst h; rfl

/-- The left operand's entry paired with result entry `j`: its kept axis reads the result's first coordinate. -/
theorem lhs_kept (D : DotDims ⟨2, ![a, k]⟩ ⟨2, ![b, k]⟩ ⟨2, ![a, b]⟩) (hlb : D.lhsBatch = []) (hln : D.lhsNonContracting = [0])
    (j : (⟨2, ![a, b]⟩ : Shape).Idx) (c : D.contr.Idx) : (D.lhsIdx j c 0).val = (j 0).val := by
  unfold DotDims.lhsIdx
  rw [dif_neg (by rw [hlb]; exact List.not_mem_nil), dif_pos (by rw [hln]; exact List.mem_singleton.mpr rfl)]
  simp only [Fin.val_cast]
  exact coord_congr j _ 0 _ (show 0 < 2 by omega) (by simp [hlb, hln])

/-- The right operand's entry paired with result entry `j`: its kept axis reads the result's second coordinate. -/
theorem rhs_kept (D : DotDims ⟨2, ![a, k]⟩ ⟨2, ![b, k]⟩ ⟨2, ![a, b]⟩) (hlb : D.lhsBatch = []) (hln : D.lhsNonContracting = [0])
    (hrb : D.rhsBatch = []) (hrn : D.rhsNonContracting = [0])
    (j : (⟨2, ![a, b]⟩ : Shape).Idx) (c : D.contr.Idx) : (D.rhsIdx j c 0).val = (j 1).val := by
  unfold DotDims.rhsIdx
  rw [dif_neg (by rw [hrb]; exact List.not_mem_nil), dif_pos (by rw [hrn]; exact List.mem_singleton.mpr rfl)]
  simp only [Fin.val_cast]
  exact coord_congr j _ 1 _ (show 1 < 2 by omega) (by simp [hlb, hln, hrn])

/-- Entry `(p, q)` of a product from zero that contracts the second axis of both operands: row `p` of the left
    operand against row `q` of the right one. -/
theorem matmul_rows_apply {φ₁ φ₂ : FTy} (D : DotDims ⟨2, ![a, k]⟩ ⟨2, ![b, k]⟩ ⟨2, ![a, b]⟩)
    (hlb : D.lhsBatch = []) (hln : D.lhsNonContracting = [0]) (hlc : D.lhsContracting = [1])
    (hrb : D.rhsBatch = []) (hrn : D.rhsNonContracting = [0]) (hrc : D.rhsContracting = [1])
    (hrank : D.contr.rank = 1) (hsize : D.contr.size ⟨0, by omega⟩ = k) (prec : Option ContractPrecision)
    (A : FVec Ideal ⟨2, ![a, k]⟩ φ₁) (B : FVec Ideal ⟨2, ![b, k]⟩ φ₂) (p : Fin a) (q : Fin b) :
    matmul D prec A B (constant ⟨2, ![a, b]⟩ .f32 0x00000000#32) (ix2 p q) = ∑ c : Fin k, A (ix2 p c) * B (ix2 q c) := by
  show FloatOps.matmul D prec A B _ (ix2 p q) = _
  rw [Ideal.matmul_constant_zero_apply, ← Equiv.sum_comp (contrEquiv1 D k hrank hsize).symm]
  refine Finset.sum_congr rfl fun c _ => ?_
  have hc := contrEquiv1_symm_val D k hrank hsize c
  have el : D.lhsIdx (ix2 p q) ((contrEquiv1 D k hrank hsize).symm c) = ix2 p c := funext fun ax => Fin.ext (by
    match ax with
    | ⟨0, _⟩ => exact lhs_kept D hlb hln _ _
    | ⟨1, _⟩ => exact (D.lhsIdx_val_of_single hlc _ _).trans hc)
  have er : D.rhsIdx (ix2 p q) ((contrEquiv1 D k hrank hsize).symm c) = ix2 q c := funext fun ax => Fin.ext (by
    match ax with
    | ⟨0, _⟩ => exact rhs_kept D hlb hln hrb hrn _ _
    | ⟨1, _⟩ => exact (D.rhsIdx_val_of_single hrc _ _).trans hc)
  rw [el, er]

end Cert.Lib.RowDots

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.BlockValues.lean ====
/-
  What the two kernel bodies leave in their output blocks, read at an entry, over the extended reals.

  The projection body holds a 512-row block `x0` of `s`, the whole matrix `x1` and the bias as a one-row array `x2`.
  Entry `(p, q)` of the block it stores is row `p` of `x0` against row `q` of `x1`, plus the bias at `q`; entry `(0, p)`
  of the one-row array it stores beside it is the sum over `q` of the squares of those 1536 numbers — the squared norm of
  projected row `p`. A change of float format is the identity on the extended reals, so the rounding of the stored block
  to 16 bits does not show.

  The distance body holds a 2048-row block `x0` of `t`, the column `x5` of those rows' squared norms, a 512-row block
  `x2` of the projected array and the one-row array `x7` of those rows' squared norms. Entry `(p, q)` of the block it
  stores is `(x5 (p, 0) + x7 (0, q))` minus two times row `p` of `x0` against row `q` of `x2`.
-/
import proofs.«166581_j71829033058971_2_alg».proof.Proof.Gen.KernelIdeal.Frame
import proofs.«166581_j71829033058971_2_alg».proof.Proof.LibRowDots
import proofs.«166581_j71829033058971_2_alg».proof.Proof.LibRowOps
import proofs.«166581_j71829033058971_2_alg».proof.Proof.LibGram
import Idealize.ShloMosaic.Lib.ValueLayout

noncomputable section

open scoped BigOperators

namespace Cert.KernelIdeal.BlockValues

open Cert.KernelIdeal Cert.KernelIdeal.Gen Idealize.ShloMosaic Idealize.ShloMosaic.ValueIdx

theorem hz : (![0, 0] : Fin 2 → Nat) = fun _ => 0 := funext fun a => by fin_cases a <;> rfl

/-! ## The projection body -/

/-- A projected entry: row `p` of the block of `s` against row `q` of the matrix, plus the bias at `q`. -/
theorem projected_apply (x0 : Vec Ideal S512x1536 .f32) (x1 : Vec Ideal S1536x1536 .bf16) (x2 : Vec Ideal S1x1536 .f32)
    (p : Fin 512) (q : Fin 1536) :
    k0_pay1 x0 x1 x2 (ix2 p q) = (∑ k : Fin 1536, x0 (ix2 p k) * x1 (ix2 q k)) + x2 (ix2 (0 : Fin 1) q) := by
  unfold k0_pay1
  refine (addf_apply _ _ _).trans (congrArg₂ (· + ·) ?_ ?_)
  · refine (Cert.Lib.RowDots.matmul_rows_apply dot_S512x1536_S1536x1536_S512x1536_1_1_0_0_n_n rfl rfl rfl rfl rfl rfl rfl rfl
      none _ _ p q).trans ?_
    rw [shapeCast_self]
    rfl
  · refine (broadcastTo_1b_ab_apply _ _ p q).trans ?_
    rw [shapeCast_self]

/-- The stored block of the projected array is the projected entries (rounding to 16 bits is the identity here). -/
theorem out0_3_apply (x0 : Vec Ideal S512x1536 .f32) (x1 : Vec Ideal S1536x1536 .bf16) (x2 : Vec Ideal S1x1536 .f32)
    (p : Fin 512) (q : Fin 1536) :
    out0_3 x0 x1 x2 (ix2 p q) = (∑ k : Fin 1536, x0 (ix2 p k) * x1 (ix2 q k)) + x2 (ix2 (0 : Fin 1) q) := by
  unfold out0_3
  rw [View.canon_unit_zero hz]
  simp only [View.ld_unit_zero (S := S512x1536) hz, View.ld_unit_zero (S := S1536x1536) hz, View.ld_unit_zero (S := S1x1536) hz]
  exact projected_apply x0 x1 x2 p q

/-- The stored row of squared norms: at `(0, p)` the sum over `q` of the squares of projected row `p`'s entries. -/
theorem out0_4_apply (x0 : Vec Ideal S512x1536 .f32) (x1 : Vec Ideal S1536x1536 .bf16) (x2 : Vec Ideal S1x1536 .f32)
    (p : Fin 512) :
    out0_4 x0 x1 x2 (ix2 (0 : Fin 1) p)
      = ∑ q : Fin 1536, ((∑ k : Fin 1536, x0 (ix2 p k) * x1 (ix2 q k)) + x2 (ix2 (0 : Fin 1) q))
          * ((∑ k : Fin 1536, x0 (ix2 p k) * x1 (ix2 q k)) + x2 (ix2 (0 : Fin 1) q)) := by
  unfold out0_4
  rw [View.canon_unit_zero hz]
  simp only [View.ld_unit_zero (S := S512x1536) hz, View.ld_unit_zero (S := S1536x1536) hz, View.ld_unit_zero (S := S1x1536) hz]
  unfold k0_pay3
  dsimp only
  refine (transpose_ix2_apply _ _ (0 : Fin 1) p).trans ?_
  refine (Cert.Lib.Gram.shapeCast_a_a1_apply _ _ p (0 : Fin 1)).trans ?_
  refine (Cert.Lib.RowOps.laneSum_apply _ _ _ _ p).trans ?_
  exact Finset.sum_congr rfl fun q _ => (mulf_apply _ _ _).trans (by rw [projected_apply x0 x1 x2 p q])

/-! ## The distance body -/

/-- The stored block of distances. -/
theorem out1_4_apply (x0 : Vec Ideal S2048x1536 .bf16) (x1 : Vec Ideal S2048x1 .f32) (x2 : Vec Ideal S512x1536 .bf16)
    (x3 : Vec Ideal S1x512 .f32) (p : Fin 2048) (q : Fin 512) :
    out1_4 x0 x1 x2 x3 (ix2 p q)
      = (x1 (ix2 p (0 : Fin 1)) + x3 (ix2 (0 : Fin 1) q))
          - Ideal.ofBits .f32 0x40000000#32 * ∑ k : Fin 1536, x0 (ix2 p k) * x2 (ix2 q k) := by
  unfold out1_4
  rw [View.canon_unit_zero hz]
  simp only [View.ld_unit_zero (S := S2048x1536) hz, View.ld_unit_zero (S := S512x1536) hz, View.ld_unit_zero (S := S2048x1) hz,
    View.ld_unit_zero (S := S1x512) hz]
  unfold k1_pay1
  refine (subf_apply _ _ _).trans (congrArg₂ (· - ·) ?_ ?_)
  · refine (addf_apply _ _ _).trans (congrArg₂ (· + ·) ?_ ?_)
    · refine (Cert.Lib.RowOps.broadcastTo_a1_ab_apply _ _ p q).trans ?_
      rw [shapeCast_self]
    · refine (broadcastTo_1b_ab_apply _ _ p q).trans ?_
      rw [shapeCast_self]
  · refine (mulf_apply _ _ _).trans (congrArg₂ (· * ·) rfl ?_)
    refine (Cert.Lib.RowDots.matmul_rows_apply dot_S2048x1536_S512x1536_S2048x512_1_1_0_0_n_n rfl rfl rfl rfl rfl rfl rfl rfl
      none _ _ p q).trans ?_
    rw [shapeCast_self, shapeCast_self]

end Cert.KernelIdeal.BlockValues

end
-- ==== Proof.ProjRegion.lean ====
/-
  The first kernel region, as a function of what it finds in memory: from the array `S` (4096 × 1536), the matrix `W`
  (1536 × 1536) and the bias as a one-row array `B` (1 × 1536) it writes the projected array, whose entry `(j, o)` is
  row `j` of `S` against row `o` of `W` plus `B (0, o)`, and beside it the one-row array of the projected rows'
  squared norms.

  The grid has 8 points. At point `i` the body sees rows `512·i …` of `S` and all of `W` and `B`, and writes block
  `(i, 0)` of the projected array and lanes `512·i …` of the row of norms; a projected row depends on the same row of
  `S` only, so each written entry is the whole-array formula at the place the block puts it. The 8 blocks tile each of
  the two results.
-/
import proofs.«166581_j71829033058971_2_alg».proof.Proof.BlockValues
import Idealize.ShloMosaic.Lib.Pipeline.Value

noncomputable section

open scoped BigOperators

namespace Cert.KernelIdeal.ProjRegion

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The projected array of `S` by `W` and `B`. -/
def projOf (S : FVec Ideal S4096x1536 .f32) (W : FVec Ideal S1536x1536 .bf16) (B : FVec Ideal S1x1536 .f32) :
    FVec Ideal S4096x1536 .bf16 := fun i =>
  (∑ k : Fin 1536, S (ix2 (i 0) k) * W (ix2 (i 1) k)) + B (ix2 (0 : Fin 1) (i 1))

/-- The squared norms of its rows, as a one-row array. -/
def projSqOf (S : FVec Ideal S4096x1536 .f32) (W : FVec Ideal S1536x1536 .bf16) (B : FVec Ideal S1x1536 .f32) :
    FVec Ideal S1x4096 .f32 := fun i =>
  ∑ q : Fin 1536, projOf S W B (ix2 (i 1) q) * projOf S W B (ix2 (i 1) q)

/-- The two arrays the region writes, from the three it reads as it finds them. -/
def projected (c : Dev nD) : FVec Ideal S4096x1536 .bf16 := projOf (V c main_arg1) (V c main_v0) (V c main_v1)
def projectedSq (c : Dev nD) : FVec Ideal S1x4096 .f32 := projSqOf (V c main_arg1) (V c main_v0) (V c main_v1)

/-- The printed index maps over the grid: the block of `S` and the lanes of the norms follow the projected block's row
    index; every other block index is zero; the row index is in range. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0
    ∧ win0_4.index t (0 : Fin 2) = 0 ∧ win0_4.index t (1 : Fin 2) = win0_3.index t (0 : Fin 2)
    ∧ win0_3.index t (0 : Fin 2) ≤ 7 :=
  (by decide +kernel : ∀ t : Fin grid0.N, _)

/-- Every block of rows is some point's. -/
theorem idx_onto : ∀ q0 : Fin 8, ∃ t : Fin cfg0.N, win0_3.index t (0 : Fin 2) = q0.val :=
  (by decide +kernel : ∀ q0 : Fin 8, ∃ t : Fin grid0.N, win0_3.index t (0 : Fin 2) = q0.val)

/-! ## The input blocks at a point, as entries of the arrays -/

theorem blockS_apply (c : Dev nD) (t : Fin cfg0.N) (p : Fin 512) (k : Fin 1536) (j : Fin 4096)
    (hj : j.val = win0_0.index t (0 : Fin 2) * 512 + p.val) (h1 : win0_0.index t (1 : Fin 2) = 0) :
    (iblk0 V c 0 t : Vec Ideal S512x1536 .f32) (ix2 p k) = (V c main_arg1 : FVec Ideal S4096x1536 .f32) (ix2 j k) := by
  unfold iblk0
  rw [View.read_apply]
  show V c main_arg1 _ = V c main_arg1 _
  refine congrArg (V c main_arg1) (funext fun a => Fin.ext ?_)
  match a with
  | ⟨0, _⟩ => show win0_0.index t (0 : Fin 2) * 512 + 1 * p.val = j.val; omega
  | ⟨1, _⟩ => show win0_0.index t (1 : Fin 2) * 1536 + 1 * k.val = k.val; omega

theorem blockW_apply (c : Dev nD) (t : Fin cfg0.N) (q k : Fin 1536)
    (h0 : win0_1.index t (0 : Fin 2) = 0) (h1 : win0_1.index t (1 : Fin 2) = 0) :
    (iblk0 V c 1 t : Vec Ideal S1536x1536 .bf16) (ix2 q k) = (V c main_v0 : FVec Ideal S1536x1536 .bf16) (ix2 q k) := by
  unfold iblk0
  rw [View.read_apply]
  show V c main_v0 _ = V c main_v0 _
  refine congrArg (V c main_v0) (funext fun a => Fin.ext ?_)
  match a with
  | ⟨0, _⟩ => show win0_1.index t (0 : Fin 2) * 1536 + 1 * q.val = q.val; omega
  | ⟨1, _⟩ => show win0_1.index t (1 : Fin 2) * 1536 + 1 * k.val = k.val; omega

theorem blockB_apply (c : Dev nD) (t : Fin cfg0.N) (q : Fin 1536)
    (h0 : win0_2.index t (0 : Fin 2) = 0) (h1 : win0_2.index t (1 : Fin 2) = 0) :
    (iblk0 V c 2 t : Vec Ideal S1x1536 .f32) (ix2 (0 : Fin 1) q) = (V c main_v1 : FVec Ideal S1x1536 .f32) (ix2 (0 : Fin 1) q) := by
  unfold iblk0
  rw [View.read_apply]
  show V c main_v1 _ = V c main_v1 _
  refine congrArg (V c main_v1) (funext fun a => Fin.ext ?_)
  match a with
  | ⟨0, _⟩ => show win0_2.index t (0 : Fin 2) * 1 + 1 * 0 = 0; omega
  | ⟨1, _⟩ => show win0_2.index t (1 : Fin 2) * 1536 + 1 * q.val = q.val; omega

/-- A projected entry computed from the blocks at point `t` is the whole-array one at the row the block places it at. -/
theorem entry_eq (c : Dev nD) (t : Fin cfg0.N) (p : Fin 512) (q : Fin 1536) (j : Fin 4096)
    (hj : j.val = win0_3.index t (0 : Fin 2) * 512 + p.val)
    (X0 : Vec Ideal S512x1536 .f32) (X1 : Vec Ideal S1536x1536 .bf16) (X2 : Vec Ideal S1x1536 .f32)
    (h0 : X0 = iblk0 V c 0 t) (h1 : X1 = iblk0 V c 1 t) (h2 : X2 = iblk0 V c 2 t) :
    (∑ k : Fin 1536, X0 (ix2 p k) * X1 (ix2 q k)) + X2 (ix2 (0 : Fin 1) q) = projected V c (ix2 j q) := by
  obtain ⟨e0, e1, e2, e3, e4, e5, -, -, -, -⟩ := idx_facts t
  subst h0 h1 h2
  unfold projected projOf
  rw [blockB_apply V c t q e4 e5]
  refine congrArg₂ (· + ·) (Finset.sum_congr rfl fun k _ => ?_) rfl
  rw [blockS_apply V c t p k j (by rw [e0]; exact hj) e1, blockW_apply V c t q k e2 e3]

/-! ## The projected array -/

theorem written3_apply (c : Dev nD) (t : Fin cfg0.N) (p : Fin 512) (q : Fin 1536) (j : Fin 4096)
    (hj : j.val = win0_3.index t (0 : Fin 2) * 512 + p.val) :
    out0_3 (iblk0 V c 0 t) (iblk0 V c 1 t) (iblk0 V c 2 t) (ix2 p q) = projected V c (ix2 j q) := by
  rw [BlockValues.out0_3_apply]
  exact entry_eq V c t p q j hj _ _ _ rfl rfl rfl

theorem flushed3_eq (c : Dev nD) (t : Fin cfg0.N) :
    (dat0 V c).flushed 3 t = ((cfg0.win 3).blk t).view.read (Elt Ideal) (projected V c) := by
  show (cfg0.win 3).cut (grid0.coords t) ((dat0 V c).after 3 t) = _
  rw [after0_3]
  funext y
  obtain ⟨-, -, -, -, -, -, z1, -, -, b0⟩ := idx_facts t
  have hy0 : (y 0).val < 512 := (y 0).isLt
  have hy1 : (y 1).val < 1536 := (y 1).isLt
  show out0_3 (iblk0 V c 0 t) (iblk0 V c 1 t) (iblk0 V c 2 t) y = projected V c (((cfg0.win 3).blk t).view.emb y)
  have ey : y = ix2 (⟨(y 0).val, hy0⟩ : Fin 512) (⟨(y 1).val, hy1⟩ : Fin 1536) := eq_ix2 y
  have ee : ((cfg0.win 3).blk t).view.emb y
      = ix2 (⟨win0_3.index t (0 : Fin 2) * 512 + (y 0).val, by omega⟩ : Fin 4096) (⟨(y 1).val, hy1⟩ : Fin 1536) := by
    funext a; apply Fin.ext
    match a with
    | ⟨0, _⟩ => show win0_3.index t (0 : Fin 2) * 512 + 1 * (y 0).val = _; show _ = win0_3.index t (0 : Fin 2) * 512 + (y 0).val; omega
    | ⟨1, _⟩ => show win0_3.index t (1 : Fin 2) * 1536 + 1 * (y 1).val = _; show _ = (y 1).val; omega
  rw [ee]
  refine (congrArg (out0_3 (iblk0 V c 0 t) (iblk0 V c 1 t) (iblk0 V c 2 t)) ey).trans ?_
  exact written3_apply V c t _ _ _ rfl

theorem mem_blk3 (t : Fin cfg0.N) (i : S4096x1536.Idx) :
    i ∈ ((cfg0.win 3).blk t).view.set ↔ ∀ a : Fin 2, win0_3.index t a * S512x1536.size a ≤ (i a).val ∧ (i a).val < win0_3.index t a * S512x1536.size a + S512x1536.size a := by
  show i ∈ ((View.whole main_v2_0).slice (win0_3.rect t)).set ↔ _
  rw [View.set_slice_whole, Rect.mem_set_unit]
  exact Iff.rfl

theorem cover3 (i : S4096x1536.Idx) : ∃ t : Fin cfg0.N, (cfg0.win 3).flush t = true ∧ i ∈ ((cfg0.win 3).blk t).view.set := by
  have hi0 : (i 0).val < 4096 := (i 0).isLt
  have hi1 : (i 1).val < 1536 := (i 1).isLt
  obtain ⟨t, q0⟩ := idx_onto ⟨(i 0).val / 512, by omega⟩
  obtain ⟨-, -, -, -, -, -, z1, -, -, -⟩ := idx_facts t
  have q0' : win0_3.index t (0 : Fin 2) = (i 0).val / 512 := q0
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1536 ≤ (i 1).val ∧ (i 1).val < win0_3.index t (1 : Fin 2) * 1536 + 1536; omega

/-- After the last write-back the projected array is the whole-array formula. -/
theorem final3 (c : Dev nD) : (dat0 V c).arrAt 3 cfg0.N = projected V c :=
  (dat0 V c).arrAt_eq_of_cover 3 (projected V c) (fun t _ => flushed3_eq V c t) cover3

/-! ## The row of squared norms -/

theorem written4_apply (c : Dev nD) (t : Fin cfg0.N) (p : Fin 512) (j : Fin 4096)
    (hj : j.val = win0_3.index t (0 : Fin 2) * 512 + p.val) :
    out0_4 (iblk0 V c 0 t) (iblk0 V c 1 t) (iblk0 V c 2 t) (ix2 (0 : Fin 1) p) = projectedSq V c (ix2 (0 : Fin 1) j) := by
  rw [BlockValues.out0_4_apply]
  show _ = ∑ q : Fin 1536, projected V c (ix2 j q) * projected V c (ix2 j q)
  exact Finset.sum_congr rfl fun q _ => by rw [entry_eq V c t p q j hj _ _ _ rfl rfl rfl]

theorem flushed4_eq (c : Dev nD) (t : Fin cfg0.N) :
    (dat0 V c).flushed 4 t = ((cfg0.win 4).blk t).view.read (Elt Ideal) (projectedSq V c) := by
  show (cfg0.win 4).cut (grid0.coords t) ((dat0 V c).after 4 t) = _
  rw [after0_4]
  funext y
  obtain ⟨-, -, -, -, -, -, -, z0, e1, b0⟩ := idx_facts t
  have hy0 : (y 0).val < 1 := (y 0).isLt
  have hy1 : (y 1).val < 512 := (y 1).isLt
  show out0_4 (iblk0 V c 0 t) (iblk0 V c 1 t) (iblk0 V c 2 t) y = projectedSq V c (((cfg0.win 4).blk t).view.emb y)
  have ey : y = ix2 (0 : Fin 1) (⟨(y 1).val, hy1⟩ : Fin 512) := by
    refine (eq_ix2 y).trans ?_
    exact congrArg (fun u : Fin 1 => ix2 u (y 1)) (Fin.ext (by show (y 0).val = 0; omega))
  have ee : ((cfg0.win 4).blk t).view.emb y
      = ix2 (0 : Fin 1) (⟨win0_3.index t (0 : Fin 2) * 512 + (y 1).val, by omega⟩ : Fin 4096) := by
    funext a; apply Fin.ext
    match a with
    | ⟨0, _⟩ => show win0_4.index t (0 : Fin 2) * 1 + 1 * (y 0).val = _; show _ = 0; omega
    | ⟨1, _⟩ => show win0_4.index t (1 : Fin 2) * 512 + 1 * (y 1).val = _; show _ = win0_3.index t (0 : Fin 2) * 512 + (y 1).val; omega
  rw [ee]
  refine (congrArg (out0_4 (iblk0 V c 0 t) (iblk0 V c 1 t) (iblk0 V c 2 t)) ey).trans ?_
  exact written4_apply V c t _ _ rfl

theorem mem_blk4 (t : Fin cfg0.N) (i : S1x4096.Idx) :
    i ∈ ((cfg0.win 4).blk t).view.set ↔ ∀ a : Fin 2, win0_4.index t a * S1x512.size a ≤ (i a).val ∧ (i a).val < win0_4.index t a * S1x512.size a + S1x512.size a := by
  show i ∈ ((View.whole main_v2_1).slice (win0_4.rect t)).set ↔ _
  rw [View.set_slice_whole, Rect.mem_set_unit]
  exact Iff.rfl

theorem cover4 (i : S1x4096.Idx) : ∃ t : Fin cfg0.N, (cfg0.win 4).flush t = true ∧ i ∈ ((cfg0.win 4).blk t).view.set := by
  have hi0 : (i 0).val < 1 := (i 0).isLt
  have hi1 : (i 1).val < 4096 := (i 1).isLt
  obtain ⟨t, q0⟩ := idx_onto ⟨(i 1).val / 512, by omega⟩
  obtain ⟨-, -, -, -, -, -, -, z0, e1, -⟩ := idx_facts t
  have q0' : win0_3.index t (0 : Fin 2) = (i 1).val / 512 := q0
  refine ⟨t, flush0_4 t, ?_⟩
  rw [mem_blk4]
  intro a
  match a with
  | ⟨0, _⟩ => show win0_4.index t (0 : Fin 2) * 1 ≤ (i 0).val ∧ (i 0).val < win0_4.index t (0 : Fin 2) * 1 + 1; omega
  | ⟨1, _⟩ => show win0_4.index t (1 : Fin 2) * 512 ≤ (i 1).val ∧ (i 1).val < win0_4.index t (1 : Fin 2) * 512 + 512; omega

/-- After the last write-back the row of norms is the whole-array formula. -/
theorem final4 (c : Dev nD) : (dat0 V c).arrAt 4 cfg0.N = projectedSq V c :=
  (dat0 V c).arrAt_eq_of_cover 4 (projectedSq V c) (fun t _ => flushed4_eq V c t) cover4

end Cert.KernelIdeal.ProjRegion

end
-- ==== Proof.DistRegion.lean ====
/-
  The second kernel region, as a function of what it finds in memory: the array it writes is the table of
  `(a (n, 0) + b (0, j)) − 2 · ⟨row n of T, row j of S⟩`, where `T` (4096 × 1536), the column `a` (4096 × 1), `S`
  (4096 × 1536) and the row `b` (1 × 4096) are the four arrays the region reads.

  The grid has 2 × 8 points. At point `(i0, i1)` the body sees rows `2048·i0 …` of `T` and of `a`, rows `512·i1 …` of
  `S`, lanes `512·i1 …` of `b`, and writes block `(i0, i1)` of the result: so entry `(p, q)` of that block is entry
  `(2048·i0 + p, 512·i1 + q)` of the table, which reads exactly those rows. The 16 blocks tile the 4096 × 4096 result,
  so after the last write-back the whole array is the table.
-/
import proofs.«166581_j71829033058971_2_alg».proof.Proof.BlockValues
import Idealize.ShloMosaic.Lib.Pipeline.Value

noncomputable section

open scoped BigOperators

namespace Cert.KernelIdeal.DistRegion

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The table `(a (n, 0) + b (0, j)) − 2 · ⟨row n of T, row j of S⟩` of four arrays. -/
def tableOf (T : FVec Ideal S4096x1536 .bf16) (a : FVec Ideal S4096x1 .f32) (S : FVec Ideal S4096x1536 .bf16)
    (b : FVec Ideal S1x4096 .f32) : FVec Ideal S4096x4096 .f32 := fun i =>
  (a (ix2 (i 0) (0 : Fin 1)) + b (ix2 (0 : Fin 1) (i 1)))
    - Ideal.ofBits .f32 0x40000000#32 * ∑ k : Fin 1536, T (ix2 (i 0) k) * S (ix2 (i 1) k)

/-- The table the region writes, from the four arrays it reads as it finds them. -/
def result (c : Dev nD) : FVec Ideal S4096x4096 .f32 :=
  tableOf (V c main_v3) (V c main_v6) (V c main_v2_0) (V c main_v2_1)

/-- The printed index maps over the grid: the block of `T` and of `a` follows the result block's row index, the block
    of `S` and of `b` its column index; every other block index is zero; the result's block indices are in range. -/
theorem idx_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (1 : Fin 2) ∧ win1_2.index t (1 : Fin 2) = 0
    ∧ win1_3.index t (0 : Fin 2) = 0 ∧ win1_3.index t (1 : Fin 2) = win1_4.index t (1 : Fin 2)
    ∧ win1_4.index t (0 : Fin 2) ≤ 1 ∧ win1_4.index t (1 : Fin 2) ≤ 7 :=
  (by decide +kernel : ∀ t : Fin grid1.N, _)

/-- Every block of the result is some point's. -/
theorem idx_onto : ∀ (q0 : Fin 2) (q1 : Fin 8), ∃ t : Fin cfg1.N, win1_4.index t = ![q0.val, q1.val] :=
  (by decide +kernel : ∀ (q0 : Fin 2) (q1 : Fin 8), ∃ t : Fin grid1.N, win1_4.index t = ![q0.val, q1.val])

/-! ## The input blocks at a point, as entries of the arrays -/

theorem blockT_apply (c : Dev nD) (t : Fin cfg1.N) (p : Fin 2048) (k : Fin 1536) (n : Fin 4096)
    (hn : n.val = win1_0.index t (0 : Fin 2) * 2048 + p.val) (h1 : win1_0.index t (1 : Fin 2) = 0) :
    (iblk1 V c 0 t : Vec Ideal S2048x1536 .bf16) (ix2 p k) = (V c main_v3 : FVec Ideal S4096x1536 .bf16) (ix2 n k) := by
  unfold iblk1
  rw [View.read_apply]
  show V c main_v3 _ = V c main_v3 _
  refine congrArg (V c main_v3) (funext fun a => Fin.ext ?_)
  match a with
  | ⟨0, _⟩ => show win1_0.index t (0 : Fin 2) * 2048 + 1 * p.val = n.val; omega
  | ⟨1, _⟩ => show win1_0.index t (1 : Fin 2) * 1536 + 1 * k.val = k.val; omega

theorem blockA_apply (c : Dev nD) (t : Fin cfg1.N) (p : Fin 2048) (n : Fin 4096)
    (hn : n.val = win1_1.index t (0 : Fin 2) * 2048 + p.val) (h1 : win1_1.index t (1 : Fin 2) = 0) :
    (iblk1 V c 1 t : Vec Ideal S2048x1 .f32) (ix2 p (0 : Fin 1)) = (V c main_v6 : FVec Ideal S4096x1 .f32) (ix2 n (0 : Fin 1)) := by
  unfold iblk1
  rw [View.read_apply]
  show V c main_v6 _ = V c main_v6 _
  refine congrArg (V c main_v6) (funext fun a => Fin.ext ?_)
  match a with
  | ⟨0, _⟩ => show win1_1.index t (0 : Fin 2) * 2048 + 1 * p.val = n.val; omega
  | ⟨1, _⟩ => show win1_1.index t (1 : Fin 2) * 1 + 1 * 0 = 0; omega

theorem blockS_apply (c : Dev nD) (t : Fin cfg1.N) (q : Fin 512) (k : Fin 1536) (j : Fin 4096)
    (hj : j.val = win1_2.index t (0 : Fin 2) * 512 + q.val) (h1 : win1_2.index t (1 : Fin 2) = 0) :
    (iblk1 V c 2 t : Vec Ideal S512x1536 .bf16) (ix2 q k) = (V c main_v2_0 : FVec Ideal S4096x1536 .bf16) (ix2 j k) := by
  unfold iblk1
  rw [View.read_apply]
  show V c main_v2_0 _ = V c main_v2_0 _
  refine congrArg (V c main_v2_0) (funext fun a => Fin.ext ?_)
  match a with
  | ⟨0, _⟩ => show win1_2.index t (0 : Fin 2) * 512 + 1 * q.val = j.val; omega
  | ⟨1, _⟩ => show win1_2.index t (1 : Fin 2) * 1536 + 1 * k.val = k.val; omega

theorem blockB_apply (c : Dev nD) (t : Fin cfg1.N) (q : Fin 512) (j : Fin 4096)
    (h0 : win1_3.index t (0 : Fin 2) = 0) (hj : j.val = win1_3.index t (1 : Fin 2) * 512 + q.val) :
    (iblk1 V c 3 t : Vec Ideal S1x512 .f32) (ix2 (0 : Fin 1) q) = (V c main_v2_1 : FVec Ideal S1x4096 .f32) (ix2 (0 : Fin 1) j) := by
  unfold iblk1
  rw [View.read_apply]
  show V c main_v2_1 _ = V c main_v2_1 _
  refine congrArg (V c main_v2_1) (funext fun a => Fin.ext ?_)
  match a with
  | ⟨0, _⟩ => show win1_3.index t (0 : Fin 2) * 1 + 1 * 0 = 0; omega
  | ⟨1, _⟩ => show win1_3.index t (1 : Fin 2) * 512 + 1 * q.val = j.val; omega

/-! ## What a point writes back, and the whole array -/

/-- Entry `(p, q)` of the block point `t` writes is the table at the entry the block places it at. -/
theorem written_apply (c : Dev nD) (t : Fin cfg1.N) (p : Fin 2048) (q : Fin 512) (n j : Fin 4096)
    (hn : n.val = win1_4.index t (0 : Fin 2) * 2048 + p.val) (hj : j.val = win1_4.index t (1 : Fin 2) * 512 + q.val) :
    out1_4 (iblk1 V c 0 t) (iblk1 V c 1 t) (iblk1 V c 2 t) (iblk1 V c 3 t) (ix2 p q) = result V c (ix2 n j) := by
  obtain ⟨e0, e1, e2, e3, e4, e5, e6, e7, -, -⟩ := idx_facts t
  rw [BlockValues.out1_4_apply]
  unfold result tableOf
  rw [blockA_apply V c t p n (by rw [e2]; exact hn) e3, blockB_apply V c t q j e6 (by rw [e7]; exact hj)]
  refine congrArg₂ (· - ·) rfl (congrArg₂ (· * ·) rfl (Finset.sum_congr rfl fun k _ => ?_))
  rw [blockT_apply V c t p k n (by rw [e0]; exact hn) e1, blockS_apply V c t q k j (by rw [e4]; exact hj) e5]

/-- What point `t` writes back is block `t` of the table. -/
theorem flushed_eq (c : Dev nD) (t : Fin cfg1.N) :
    (dat1 V c).flushed 4 t = ((cfg1.win 4).blk t).view.read (Elt Ideal) (result V c) := by
  show (cfg1.win 4).cut (grid1.coords t) ((dat1 V c).after 4 t) = _
  rw [after1_4]
  funext y
  obtain ⟨-, -, -, -, -, -, -, -, b0, b1⟩ := idx_facts t
  have hy0 : (y 0).val < 2048 := (y 0).isLt
  have hy1 : (y 1).val < 512 := (y 1).isLt
  show out1_4 (iblk1 V c 0 t) (iblk1 V c 1 t) (iblk1 V c 2 t) (iblk1 V c 3 t) y = result V c (((cfg1.win 4).blk t).view.emb y)
  have ey : y = ix2 (⟨(y 0).val, hy0⟩ : Fin 2048) (⟨(y 1).val, hy1⟩ : Fin 512) := eq_ix2 y
  have ee : ((cfg1.win 4).blk t).view.emb y
      = ix2 (⟨win1_4.index t (0 : Fin 2) * 2048 + (y 0).val, by omega⟩ : Fin 4096) (⟨win1_4.index t (1 : Fin 2) * 512 + (y 1).val, by omega⟩ : Fin 4096) := by
    funext a; apply Fin.ext
    match a with
    | ⟨0, _⟩ => show win1_4.index t (0 : Fin 2) * 2048 + 1 * (y 0).val = _; show _ = win1_4.index t (0 : Fin 2) * 2048 + (y 0).val; omega
    | ⟨1, _⟩ => show win1_4.index t (1 : Fin 2) * 512 + 1 * (y 1).val = _; show _ = win1_4.index t (1 : Fin 2) * 512 + (y 1).val; omega
  rw [ee]
  refine (congrArg (out1_4 (iblk1 V c 0 t) (iblk1 V c 1 t) (iblk1 V c 2 t) (iblk1 V c 3 t)) ey).trans ?_
  exact written_apply V c t _ _ _ _ rfl rfl

/-- An index of the result is in point `t`'s block iff each coordinate is in the block's range on its axis. -/
theorem mem_blk (t : Fin cfg1.N) (i : S4096x4096.Idx) :
    i ∈ ((cfg1.win 4).blk t).view.set ↔ ∀ a : Fin 2, win1_4.index t a * S2048x512.size a ≤ (i a).val ∧ (i a).val < win1_4.index t a * S2048x512.size a + S2048x512.size a := by
  show i ∈ ((View.whole main_v7).slice (win1_4.rect t)).set ↔ _
  rw [View.set_slice_whole, Rect.mem_set_unit]
  exact Iff.rfl

/-- Every entry of the result is in some point's block: the point whose block indices are the quotients by the block
    sizes. -/
theorem cover (i : S4096x4096.Idx) : ∃ t : Fin cfg1.N, (cfg1.win 4).flush t = true ∧ i ∈ ((cfg1.win 4).blk t).view.set := by
  have hi0 : (i 0).val < 4096 := (i 0).isLt
  have hi1 : (i 1).val < 4096 := (i 1).isLt
  obtain ⟨t, ht⟩ := idx_onto ⟨(i 0).val / 2048, by omega⟩ ⟨(i 1).val / 512, by omega⟩
  have q0 : win1_4.index t (0 : Fin 2) = (i 0).val / 2048 := congrFun ht 0
  have q1 : win1_4.index t (1 : Fin 2) = (i 1).val / 512 := congrFun ht 1
  refine ⟨t, flush1_4 t, ?_⟩
  rw [mem_blk]
  intro a
  match a with
  | ⟨0, _⟩ => show win1_4.index t (0 : Fin 2) * 2048 ≤ (i 0).val ∧ (i 0).val < win1_4.index t (0 : Fin 2) * 2048 + 2048; omega
  | ⟨1, _⟩ => show win1_4.index t (1 : Fin 2) * 512 ≤ (i 1).val ∧ (i 1).val < win1_4.index t (1 : Fin 2) * 512 + 512; omega

/-- After the last write-back the region's result array is the table. -/
theorem final (c : Dev nD) : (dat1 V c).arrAt 4 cfg1.N = result V c :=
  (dat1 V c).arrAt_eq_of_cover 4 (result V c) (fun t _ => flushed_eq V c t) cover

end Cert.KernelIdeal.DistRegion

end
-- ==== Proof.DistanceTable.lean ====
/-
  The table of squared distances between the rows of an array `t` and the projected rows of an array `s`.

  Row `j` of `s` is projected by a square matrix `w` and a bias `b`: its entry `o` is the inner product of row `j` of
  `s` with row `o` of `w`, plus `b o`. The squared distance between row `n` of `t` and projected row `j` is expanded as
  the squared norm of the one, plus the squared norm of the other, minus twice their inner product. Every sum runs over
  the 1536 coordinates of a row, in the coordinate's order, and the factor two is kept as the 32-bit word it is written
  with: nothing here is evaluated, so no law of the extended reals beyond the spelling of the sums is used.
-/
import Idealize.ShloMosaic.PureOps.Ideal
import Idealize.ShloMosaic.Lib.ValueIdx

noncomputable section

open scoped BigOperators

namespace Cert.DistanceTable

open Idealize.ShloMosaic Idealize.ShloMosaic.ValueIdx

/-- Entry `o` of projected row `j`: row `j` of `s` against row `o` of `w`, plus the bias at `o`. -/
def proj (s : FVec Ideal ⟨2, ![4096, 1536]⟩ .f32) (w : FVec Ideal ⟨2, ![1536, 1536]⟩ .f32) (b : FVec Ideal ⟨1, ![1536]⟩ .f32)
    (j : Fin 4096) (o : Fin 1536) : EReal :=
  (∑ k : Fin 1536, s (ix2 j k) * w (ix2 o k)) + b (ix1 o)

/-- The squared norm of row `n` of `t`. -/
def rowSq (t : FVec Ideal ⟨2, ![4096, 1536]⟩ .f32) (n : Fin 4096) : EReal :=
  ∑ k : Fin 1536, t (ix2 n k) * t (ix2 n k)

/-- The squared norm of projected row `j`. -/
def projSq (s : FVec Ideal ⟨2, ![4096, 1536]⟩ .f32) (w : FVec Ideal ⟨2, ![1536, 1536]⟩ .f32) (b : FVec Ideal ⟨1, ![1536]⟩ .f32)
    (j : Fin 4096) : EReal :=
  ∑ o : Fin 1536, proj s w b j o * proj s w b j o

/-- The inner product of row `n` of `t` with projected row `j`. -/
def cross (t s : FVec Ideal ⟨2, ![4096, 1536]⟩ .f32) (w : FVec Ideal ⟨2, ![1536, 1536]⟩ .f32) (b : FVec Ideal ⟨1, ![1536]⟩ .f32)
    (n j : Fin 4096) : EReal :=
  ∑ k : Fin 1536, t (ix2 n k) * proj s w b j k

/-- The squared distance between row `n` of `t` and projected row `j`, expanded. -/
def sqDist (t s : FVec Ideal ⟨2, ![4096, 1536]⟩ .f32) (w : FVec Ideal ⟨2, ![1536, 1536]⟩ .f32) (b : FVec Ideal ⟨1, ![1536]⟩ .f32)
    (n j : Fin 4096) : EReal :=
  (rowSq t n + projSq s w b j) - Ideal.ofBits .f32 0x40000000#32 * cross t s w b n j

/-- The whole table, indexed by (row of `t`, row of `s`). -/
def table (t s : FVec Ideal ⟨2, ![4096, 1536]⟩ .f32) (w : FVec Ideal ⟨2, ![1536, 1536]⟩ .f32) (b : FVec Ideal ⟨1, ![1536]⟩ .f32) :
    FVec Ideal ⟨2, ![4096, 4096]⟩ .f32 :=
  fun i => sqDist t s w b (i 0) (i 1)

theorem table_apply (t s : FVec Ideal ⟨2, ![4096, 1536]⟩ .f32) (w : FVec Ideal ⟨2, ![1536, 1536]⟩ .f32) (b : FVec Ideal ⟨1, ![1536]⟩ .f32)
    (n j : Fin 4096) : table t s w b (ix2 n j) = sqDist t s w b n j := rfl

end Cert.DistanceTable

end
-- ==== Proof.KernelTable.lean ====
/-
  The kernel program computes the distance table.

  The program runs the projection region, a stretch of host operations, and the distance region. Read through the
  memory contents at the boundaries between them:
  * the projection region finds `s`, the matrix with its format changed (the identity on the extended reals) and the
    bias re-shaped to one row, and leaves the projected array and the row of its rows' squared norms;
  * the host stretch leaves `t` with its format changed, and the column of the squared norms of the rows of `t` (the
    zero word plus the sum of a row's squares), and does not touch what the projection region wrote;
  * the distance region finds these four arrays and leaves the table `(a (n, 0) + b (0, j)) − 2 · ⟨row n, row j⟩`.
  Entry by entry this is the table of squared distances of `t`, `s`, the matrix and the bias.

  The run itself — every execution ends, with the result array at what the second region leaves and the arguments as
  launched — is the frame's run over the same segments, with the result array kept in the post.
-/
import proofs.«166581_j71829033058971_2_alg».proof.Proof.Gen.KernelIdeal.Frame
import proofs.«166581_j71829033058971_2_alg».proof.Proof.ProjRegion
import proofs.«166581_j71829033058971_2_alg».proof.Proof.DistRegion
import proofs.«166581_j71829033058971_2_alg».proof.Proof.DistanceTable
import Idealize.ShloMosaic.Lib.StableHlo.Run
import Idealize.ShloMosaic.Lib.ValueLayout

set_option maxRecDepth 16384

noncomputable section

open scoped BigOperators

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the program ends, without a fault, with the result array at what the last region's
    write-backs leave and the argument arrays as launched. -/
theorem run_named : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Run

/-! ## The memory contents the two regions find, at the extended reals -/

open Idealize.ShloMosaic.ValueIdx Cert.DistanceTable

variable (m : (ℓ : Loc nD τ sig) → Buf (Elt Ideal) ℓ) (ρ : Dev nD → PrngReg)

/-- The four argument arrays as launched: `t`, `s`, the matrix, the bias. -/
abbrev argT (c : Dev nD) : FVec Ideal S4096x1536 .f32 := m ((c : Thread nD τ).loc main_arg0)
abbrev argS (c : Dev nD) : FVec Ideal S4096x1536 .f32 := m ((c : Thread nD τ).loc main_arg1)
abbrev argW (c : Dev nD) : FVec Ideal S1536x1536 .f32 := m ((c : Thread nD τ).loc main_arg2)
abbrev argB (c : Dev nD) : FVec Ideal S1536 .f32 := m ((c : Thread nD τ).loc main_arg3)

/-- The first host stretch writes none of the arguments. -/
theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results

theorem V1_arg1 (c : Dev nD) : V1 m ρ c main_arg1 = m ((c : Thread nD τ).loc main_arg1) := by
  show StableHlo.after hostOps0 (W0 m ρ c) (Proc.devRef .tc main_arg1) = _
  dsimp only [hostOps0]
  after_results

/-- The matrix as the projection region finds it: its format changed. -/
theorem V1_v0 (c : Dev nD) : V1 m ρ c main_v0 = (truncf .bf16 (argW m c) bitsLt_bf16_f32 : FVec Ideal S1536x1536 .bf16) := by
  show StableHlo.after hostOps0 (W0 m ρ c) (Proc.devRef .tc main_v0) = _
  dsimp only [hostOps0]
  after_results

/-- The bias as the projection region finds it: re-shaped to one row. -/
theorem V1_v1 (c : Dev nD) : V1 m ρ c main_v1 = (shapeCast S1x1536 (argB m c) shapeCasts_S1536_S1x1536 : FVec Ideal S1x1536 .f32) := by
  show StableHlo.after hostOps0 (W0 m ρ c) (Proc.devRef .tc main_v1) = _
  dsimp only [hostOps0]
  after_results
  rfl

/-- The projection region does not write `t`. -/
theorem W2_arg0 (c : Dev nD) : W2 m ρ c (Proc.devRef .tc main_arg0) = m ((c : Thread nD τ).loc main_arg0) :=
  (W2_of_ne m ρ c main_arg0 (by decide)).trans (W1_arg0 m ρ c)

/-- `t` as the distance region finds it: its format changed. -/
theorem V3_v3 (c : Dev nD) : V3 m ρ c main_v3 = (truncf .bf16 (argT m c) bitsLt_bf16_f32 : FVec Ideal S4096x1536 .bf16) := by
  show StableHlo.after hostOps1 (W2 m ρ c) (Proc.devRef .tc main_v3) = _
  dsimp only [hostOps1]
  after_results
  rw [W2_arg0]

/-- The column of squared norms as the distance region finds it. -/
theorem V3_v6 (c : Dev nD) : V3 m ρ c main_v6
    = (broadcastInDim S4096x1 ![0] bcast_S4096_S4096x1_0
        (Host.reduceAdd (F := Ideal) (mulf (argT m c) (argT m c))
          (constant (F := Ideal) S_ .f32 0x00000000#32) reducesTo_S4096x1536_S4096_d1 h_S_) : FVec Ideal S4096x1 .f32) := by
  show StableHlo.after hostOps1 (W2 m ρ c) (Proc.devRef .tc main_v6) = _
  dsimp only [hostOps1]
  after_results
  rw [W2_arg0]

/-- The host stretch between the regions leaves what the projection region wrote. -/
theorem V3_v2_0 (c : Dev nD) : V3 m ρ c main_v2_0 = ProjRegion.projected (V1 m ρ) c := by
  show StableHlo.after hostOps1 (W2 m ρ c) (Proc.devRef .tc main_v2_0) = _
  dsimp only [hostOps1]
  after_results
  exact (W2_arr m ρ c 3).trans (ProjRegion.final3 (V1 m ρ) c)

theorem V3_v2_1 (c : Dev nD) : V3 m ρ c main_v2_1 = ProjRegion.projectedSq (V1 m ρ) c := by
  show StableHlo.after hostOps1 (W2 m ρ c) (Proc.devRef .tc main_v2_1) = _
  dsimp only [hostOps1]
  after_results
  exact (W2_arr m ρ c 4).trans (ProjRegion.final4 (V1 m ρ) c)

/-! ## The table, entry by entry -/

theorem projOf_apply (S : FVec Ideal S4096x1536 .f32) (W : FVec Ideal S1536x1536 .bf16) (B : FVec Ideal S1x1536 .f32)
    (j : Fin 4096) (o : Fin 1536) :
    ProjRegion.projOf S W B (ix2 j o) = (∑ k : Fin 1536, S (ix2 j k) * W (ix2 o k)) + B (ix2 (0 : Fin 1) o) := rfl

theorem projSqOf_apply (S : FVec Ideal S4096x1536 .f32) (W : FVec Ideal S1536x1536 .bf16) (B : FVec Ideal S1x1536 .f32)
    (j : Fin 4096) :
    ProjRegion.projSqOf S W B (ix2 (0 : Fin 1) j)
      = ∑ q : Fin 1536, ProjRegion.projOf S W B (ix2 j q) * ProjRegion.projOf S W B (ix2 j q) := rfl

theorem tableOf_apply (T : FVec Ideal S4096x1536 .bf16) (a : FVec Ideal S4096x1 .f32) (S : FVec Ideal S4096x1536 .bf16)
    (b : FVec Ideal S1x4096 .f32) (n j : Fin 4096) :
    DistRegion.tableOf T a S b (ix2 n j)
      = (a (ix2 n (0 : Fin 1)) + b (ix2 (0 : Fin 1) j))
          - Ideal.ofBits .f32 0x40000000#32 * ∑ k : Fin 1536, T (ix2 n k) * S (ix2 j k) := rfl

/-- Row `n` of `t` as the distance region finds it. -/
theorem rowsT_apply (c : Dev nD) (n : Fin 4096) (k : Fin 1536) :
    (V3 m ρ c main_v3 : FVec Ideal S4096x1536 .bf16) (ix2 n k) = argT m c (ix2 n k) := by
  rw [V3_v3]
  rfl

/-- The column of norms at row `n`: the zero word plus the sum of the squares of row `n` of `t`. -/
theorem normsT_apply (c : Dev nD) (n : Fin 4096) :
    (V3 m ρ c main_v6 : FVec Ideal S4096x1 .f32) (ix2 n (0 : Fin 1)) = rowSq (argT m c) n := by
  rw [V3_v6]
  refine (broadcastInDim_apply _ bcast_S4096_S4096x1_0 _ (ix2 n (0 : Fin 1)) (ix1 n) (fun a => match a with
    | ⟨0, _⟩ => by show n.val = if (4096 : Nat) = 1 then 0 else n.val; rw [if_neg (by decide)])).trans ?_
  simp only [Host.reduceAdd, Ideal.hostReduceAdd_def]
  rw [Ideal.hostReduceAdd_single reducesTo_S4096x1536_S4096_d1 (by decide)]
  unfold rowSq
  refine Eq.trans (congrArg₂ (· + ·) (show _ = (0 : EReal) from Ideal.ofBits_zero_f32) (Finset.sum_congr rfl fun k _ => ?_))
    (zero_add (∑ k : Fin 1536, argT m c (ix2 n k) * argT m c (ix2 n k)))
  exact congrArg₂ (· * ·)
    (congrArg (argT m c) (funext fun a => Fin.ext (by match a with | ⟨0, _⟩ => rfl | ⟨1, _⟩ => rfl)))
    (congrArg (argT m c) (funext fun a => Fin.ext (by match a with | ⟨0, _⟩ => rfl | ⟨1, _⟩ => rfl)))

/-- The projected array as the distance region finds it. -/
theorem proj_apply (c : Dev nD) (j : Fin 4096) (o : Fin 1536) :
    (V3 m ρ c main_v2_0 : FVec Ideal S4096x1536 .bf16) (ix2 j o) = proj (argS m c) (argW m c) (argB m c) j o := by
  rw [V3_v2_0]
  unfold ProjRegion.projected
  rw [V1_arg1, V1_v0, V1_v1, projOf_apply]
  unfold proj
  exact congrArg₂ (· + ·) rfl (shapeCast_a_1a_apply _ _ (0 : Fin 1) o)

/-- The row of the projected rows' squared norms as the distance region finds it. -/
theorem normsP_apply (c : Dev nD) (j : Fin 4096) :
    (V3 m ρ c main_v2_1 : FVec Ideal S1x4096 .f32) (ix2 (0 : Fin 1) j) = projSq (argS m c) (argW m c) (argB m c) j := by
  rw [V3_v2_1]
  unfold ProjRegion.projectedSq
  rw [projSqOf_apply]
  show ∑ q : Fin 1536, ProjRegion.projected (V1 m ρ) c (ix2 j q) * ProjRegion.projected (V1 m ρ) c (ix2 j q) = _
  unfold projSq
  refine Finset.sum_congr rfl fun q _ => ?_
  rw [← V3_v2_0, proj_apply]

/-- What the distance region writes is the table of squared distances of the four arguments. -/
theorem result_table (c : Dev nD) :
    DistRegion.result (V3 m ρ) c = table (argT m c) (argS m c) (argW m c) (argB m c) := by
  funext i
  obtain ⟨n, j, rfl⟩ : ∃ (n j : Fin 4096), i = ix2 n j := ⟨i 0, i 1, eq_ix2 i⟩
  rw [table_apply]
  unfold DistRegion.result
  rw [tableOf_apply, normsT_apply, normsP_apply]
  unfold sqDist cross
  exact congrArg₂ (· - ·) rfl (congrArg₂ (· * ·) rfl (Finset.sum_congr rfl fun k _ => by rw [rowsT_apply, proj_apply]))

/-- The result array after the run is the table. -/
theorem final (c : Dev nD) :
    W4 m ρ c (Proc.devRef .tc main_v7) = table (argT m c) (argS m c) (argW m c) (argB m c) :=
  (W4_arr m ρ c 4).trans ((DistRegion.final (V3 m ρ) c).trans (result_table m ρ c))

/-- The run, read: the result array at the table of the argument arrays, the arguments unchanged. -/
theorem run : θ_run defs (onTc (τ := τ) (main (F := Ideal))) ⟨m, fun _ => 0, ρ⟩ (fun r => ∀ c : Dev nD,
      r.2.mem ((c.tc : Thread nD τ).loc main_v7) = table (argT m c) (argS m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (final m ρ c), (h c).2⟩) (run_named m ρ)

end Cert.KernelIdeal.Whole

end
-- ==== Proof.RefIsTable.lean ====
/-
  The reference computes the distance table.

  The reference transposes the matrix and multiplies `s` by the transpose, adds the bias along the rows, squares and
  sums the rows of `t` and of the projected array, transposes the projected array and multiplies `t` by it, and
  combines the three tables as (norms of `t` down the rows + norms of the projection along the columns) − 2 · products.
  Read at an entry, a product with a transpose is a sum over the shared coordinate of one operand's row entry times the
  other operand's ROW entry, and each host sum is the zero word plus the sum of a row; so each stage is, entry by entry,
  the term of the same name in the table's definition, with no law used beyond `0 + x = x`.
-/
import proofs.«166581_j71829033058971_2_alg».proof.Proof.Gen.ReferenceIdeal.Read
import proofs.«166581_j71829033058971_2_alg».proof.Proof.DistanceTable

noncomputable section

open scoped BigOperators

namespace Cert.ReferenceIdeal.RefValue

open Cert.ReferenceIdeal Cert.ReferenceIdeal.Read Idealize.ShloMosaic Idealize.ShloMosaic.ValueIdx Cert.DistanceTable

/-- The projected array at `(j, o)`. -/
theorem projected_apply (x1 : FVec Ideal S4096x1536 .f32) (x2 : FVec Ideal S1536x1536 .f32) (x3 : FVec Ideal S1536 .f32)
    (j : Fin 4096) (o : Fin 1536) : val_main_v4 (F := Ideal) x1 x2 x3 (ix2 j o) = proj x1 x2 x3 j o := by
  rw [val_main_v4_apply, val_main_v1_apply, val_main_v3_apply, val_main_v2_apply]
  unfold proj
  refine congrArg₂ (· + ·) (Finset.sum_congr rfl fun k _ => ?_) ?_
  · rw [val_main_v0_apply]
    exact congrArg₂ (· * ·)
      (congrArg x1 (funext fun a => Fin.ext (by match a with | ⟨0, _⟩ => rfl | ⟨1, _⟩ => rfl)))
      (congrArg x2 (funext fun a => Fin.ext (by match a with | ⟨0, _⟩ => rfl | ⟨1, _⟩ => rfl)))
  · exact congrArg x3 (funext fun a => Fin.ext (by match a with | ⟨0, _⟩ => rfl))

/-- The squared norms of the rows of `t`. -/
theorem rowSq_apply (x0 : FVec Ideal S4096x1536 .f32) (n : Fin 4096) : val_main_v6 (F := Ideal) x0 (ix1 n) = rowSq x0 n := by
  rw [val_main_v6_apply, val_main_cst_apply, Ideal.ofBits_def, Ideal.ofBits_zero_f32, zero_add]
  unfold rowSq
  refine Finset.sum_congr rfl fun k _ => ?_
  rw [val_main_v5_apply]
  exact congrArg₂ (· * ·)
    (congrArg x0 (funext fun a => Fin.ext (by match a with | ⟨0, _⟩ => rfl | ⟨1, _⟩ => rfl)))
    (congrArg x0 (funext fun a => Fin.ext (by match a with | ⟨0, _⟩ => rfl | ⟨1, _⟩ => rfl)))

/-- The squared norms of the projected rows. -/
theorem projSq_apply (x1 : FVec Ideal S4096x1536 .f32) (x2 : FVec Ideal S1536x1536 .f32) (x3 : FVec Ideal S1536 .f32)
    (j : Fin 4096) : val_main_v8 (F := Ideal) x1 x2 x3 (ix1 j) = projSq x1 x2 x3 j := by
  rw [val_main_v8_apply, val_main_cst_0_apply, Ideal.ofBits_def, Ideal.ofBits_zero_f32, zero_add]
  unfold projSq
  refine Finset.sum_congr rfl fun o _ => ?_
  rw [val_main_v7_apply, ← projected_apply x1 x2 x3 j o]
  exact congrArg₂ (· * ·)
    (congrArg (val_main_v4 (F := Ideal) x1 x2 x3) (funext fun a => Fin.ext (by match a with | ⟨0, _⟩ => rfl | ⟨1, _⟩ => rfl)))
    (congrArg (val_main_v4 (F := Ideal) x1 x2 x3) (funext fun a => Fin.ext (by match a with | ⟨0, _⟩ => rfl | ⟨1, _⟩ => rfl)))

/-- The products of the rows of `t` with the projected rows. -/
theorem cross_apply (x0 x1 : FVec Ideal S4096x1536 .f32) (x2 : FVec Ideal S1536x1536 .f32) (x3 : FVec Ideal S1536 .f32)
    (n j : Fin 4096) : val_main_v10 (F := Ideal) x0 x1 x2 x3 (ix2 n j) = cross x0 x1 x2 x3 n j := by
  rw [val_main_v10_apply]
  unfold cross
  refine Finset.sum_congr rfl fun k _ => ?_
  rw [val_main_v9_apply, ← projected_apply x1 x2 x3 j k]
  exact congrArg₂ (· * ·)
    (congrArg x0 (funext fun a => Fin.ext (by match a with | ⟨0, _⟩ => rfl | ⟨1, _⟩ => rfl)))
    (congrArg (val_main_v4 (F := Ideal) x1 x2 x3) (funext fun a => Fin.ext (by match a with | ⟨0, _⟩ => rfl | ⟨1, _⟩ => rfl)))

/-- The reference's result is the table. -/
theorem result_eq (x0 x1 : FVec Ideal S4096x1536 .f32) (x2 : FVec Ideal S1536x1536 .f32) (x3 : FVec Ideal S1536 .f32) :
    val_main_v18 (F := Ideal) x0 x1 x2 x3 = table x0 x1 x2 x3 := by
  funext i
  obtain ⟨n, j, rfl⟩ : ∃ (n j : Fin 4096), i = ix2 n j := ⟨i 0, i 1, eq_ix2 i⟩
  rw [table_apply]
  unfold sqDist
  rw [val_main_v18_apply, val_main_v15_apply, val_main_v17_apply, val_main_v13_apply, val_main_v11_apply,
    val_main_v14_apply, val_main_v12_apply, val_main_v16_apply, val_main_cst_1_apply,
    ← rowSq_apply x0 n, ← projSq_apply x1 x2 x3 j, ← cross_apply x0 x1 x2 x3 n j]
  exact congrArg₂ (· - ·)
    (congrArg₂ (· + ·)
      (congrArg (val_main_v6 (F := Ideal) x0) (funext fun a => Fin.ext (by match a with | ⟨0, _⟩ => rfl)))
      (congrArg (val_main_v8 (F := Ideal) x1 x2 x3) (funext fun a => Fin.ext (by match a with | ⟨0, _⟩ => rfl))))
    rfl

end Cert.ReferenceIdeal.RefValue

end
-- ==== Proof.lean ====
/-
  A table of squared distances, two ways.

  Both programs take an array `t` and an array `s` of 4096 rows of 1536 numbers, a 1536 × 1536 matrix and a bias, project
  every row of `s` by the matrix and the bias, and return the 4096 × 4096 table whose entry `(n, j)` is the squared
  distance between row `n` of `t` and projected row `j`, expanded as (squared norm of the one) + (squared norm of the
  other) − 2 · (their inner product).

  The kernel program does it in two tiled passes: a projection pass that also leaves the projected rows' squared
  norms, and a distance pass that multiplies blocks of `t` by blocks of the projected array without forming a transpose;
  the squared norms of the rows of `t` are taken by host operations in between. The reference forms two transposes and
  two whole matrix products. Over the extended reals a change of float format is the identity and a sum is a sum, and
  both programs add the same 1536 products in the same order at every entry: the two results are the same term
  (`Cert.DistanceTable.table`) entry by entry, with no use of the inputs being finite. The kernel side is read off the
  run of its two regions (`Cert.KernelIdeal.Whole.run`), the reference side off its operations one at a time
  (`Cert.ReferenceIdeal.RefValue.result_eq`). The idealized kernel is the kernel's own text read over the extended reals
  (no rewrite was applied), so there is nothing to preserve beyond that.
-/
import proofs.«166581_j71829033058971_2_alg».proof.Defs
import proofs.«166581_j71829033058971_2_alg».proof.Proof.Gen.Kernel
import proofs.«166581_j71829033058971_2_alg».proof.Proof.Gen.Kernel.Skeleton
import proofs.«166581_j71829033058971_2_alg».proof.Proof.Gen.Kernel.Launch
import proofs.«166581_j71829033058971_2_alg».proof.Proof.Gen.Kernel.Points
import proofs.«166581_j71829033058971_2_alg».proof.Proof.Gen.Kernel.Frame
import proofs.«166581_j71829033058971_2_alg».proof.Proof.Gen.KernelIdeal
import proofs.«166581_j71829033058971_2_alg».proof.Proof.Gen.KernelIdeal.Skeleton
import proofs.«166581_j71829033058971_2_alg».proof.Proof.Gen.KernelIdeal.Launch
import proofs.«166581_j71829033058971_2_alg».proof.Proof.Gen.KernelIdeal.Points
import proofs.«166581_j71829033058971_2_alg».proof.Proof.Gen.KernelIdeal.Frame
import proofs.«166581_j71829033058971_2_alg».proof.Proof.Gen.ReferenceIdeal
import proofs.«166581_j71829033058971_2_alg».proof.Proof.Gen.ReferenceIdeal.Run
import proofs.«166581_j71829033058971_2_alg».proof.Proof.Gen.ReferenceIdeal.Read
import proofs.«166581_j71829033058971_2_alg».proof.Proof.Gen.Pre_finite_inputs
import proofs.«166581_j71829033058971_2_alg».proof.Proof.KernelTable
import proofs.«166581_j71829033058971_2_alg».proof.Proof.RefIsTable
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten for the reading over the extended reals. -/
theorem preserves : Cert.preserves_Kernel_KernelIdeal := trivial

/-- From memories that agree on the four arguments both programs end with the table of squared distances of those
    arguments in their result arrays. -/
theorem algebraic : Cert.algebraic_KernelIdeal_ReferenceIdeal := by
  intro m ρ m' ρ' _ hagree
  refine ⟨fun c => Cert.DistanceTable.table (Cert.KernelIdeal.Whole.argT m c) (Cert.KernelIdeal.Whole.argS m c)
    (Cert.KernelIdeal.Whole.argW m c) (Cert.KernelIdeal.Whole.argB m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
